-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x1 : Shape := ⟨2, ![16777216, 1]⟩
abbrev S_ : Shape := ⟨0, ![]⟩

class Facts : Prop where
  bcast_S_S16777216x1 : S_.BroadcastsInDim S16777216x1 (![] : Fin 0 → Fin S16777216x1.rank)
  reducesTo_S16777216x1_S_d0_1 : S16777216x1.ReducesTo [0, 1] S_
  h_S_ : 0 < S_.numel

variable [Facts]

def fn {F : FTy → Type} [FloatOps F] (main_arg0 : FVec F S16777216x1 .f32) (main_arg1 : FVec F S16777216x1 .f32) : IVec S_ 1 :=
  let main_v0 : FVec F S16777216x1 .f32 := Host.absf main_arg0
  let main_cst : FVec F S_ .f32 := constant S_ .f32 0x7F800000#32
  let main_v1 : FVec F S16777216x1 .f32 := broadcastInDim S16777216x1 ![] bcast_S_S16777216x1 main_cst
  let main_v2 : IVec S16777216x1 1 := cmpf .olt main_v0 main_v1
  let main_c : IVec S_ 1 := constantI S_ 1 1#1
  let main_v3 : IVec S_ 1 := (fun x v => Host.reduce IntOp.andi x v reducesTo_S16777216x1_S_d0_1 h_S_) main_v2 main_c
  let main_v4 : FVec F S16777216x1 .f32 := Host.absf main_arg1
  let main_cst_0 : FVec F S_ .f32 := constant S_ .f32 0x7F800000#32
  let main_v5 : FVec F S16777216x1 .f32 := broadcastInDim S16777216x1 ![] bcast_S_S16777216x1 main_cst_0
  let main_v6 : IVec S16777216x1 1 := cmpf .olt main_v4 main_v5
  let main_c_1 : IVec S_ 1 := constantI S_ 1 1#1
  let main_v7 : IVec S_ 1 := (fun x v => Host.reduce IntOp.andi x v reducesTo_S16777216x1_S_d0_1 h_S_) main_v6 main_c_1
  let main_v8 : IVec S_ 1 := andi main_v3 main_v7
  main_v8
-- ==== Kernel.lean ====
abbrev S16777216x1 : Shape := ⟨2, ![16777216, 1]⟩
abbrev S131072x128 : Shape := ⟨2, ![131072, 128]⟩
abbrev S16x128 : Shape := ⟨2, ![16, 128]⟩
abbrev S8192x128 : Shape := ⟨2, ![8192, 128]⟩
abbrev S8x128 : Shape := ⟨2, ![8, 128]⟩
abbrev S1024x8x128 : Shape := ⟨3, ![1024, 8, 128]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S16777216x1, .f32⟩
  | .hbm, ⟨1, _⟩ => ⟨S16777216x1, .f32⟩
  | .hbm, ⟨2, _⟩ => ⟨S131072x128, .f32⟩
  | .hbm, ⟨3, _⟩ => ⟨S131072x128, .f32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S16777216x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16777216x1_S131072x128 : S16777216x1.ShapeCasts S131072x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1024x8x128 : S8192x128.ShapeCasts S1024x8x128
  reduces_S1024x8x128_S8x128 : S1024x8x128.Reduces [0] S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216x1 : Shape := ⟨2, ![16777216, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16777216x1, .f32⟩
  | .hbm, ⟨1, _⟩ => ⟨S16777216x1, .f32⟩
  | .hbm, ⟨2, _⟩ => ⟨S16777216x1, .f32⟩
  | .hbm, ⟨3, _⟩ => ⟨S16777216x1, .f32⟩
  | .hbm, ⟨4, _⟩ => ⟨S16777216x1, .f32⟩
  | .hbm, ⟨5, _⟩ => ⟨S16777216x1, .f32⟩
  | .hbm, ⟨6, _⟩ => ⟨S16777216x1, .f32⟩
  | .hbm, ⟨7, _⟩ => ⟨S_, .f32⟩
  | .hbm, ⟨8, _⟩ => ⟨S16777216x1, .f32⟩
  | .hbm, ⟨9, _⟩ => ⟨S16777216x1, .i1⟩
  | .hbm, ⟨10, _⟩ => ⟨S_, .f32⟩
  | .hbm, ⟨11, _⟩ => ⟨S16777216x1, .f32⟩
  | .hbm, ⟨12, _⟩ => ⟨S16777216x1, .i1⟩
  | .hbm, ⟨13, _⟩ => ⟨S_, .f32⟩
  | .hbm, ⟨14, _⟩ => ⟨S16777216x1, .f32⟩
  | .hbm, ⟨15, _⟩ => ⟨S16777216x1, .f32⟩
  | .hbm, ⟨16, _⟩ => ⟨S16777216x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S16777216x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S16777216x1 : S_.BroadcastsInDim S16777216x1 (![] : Fin 0 → Fin S16777216x1.rank)
  reducesTo_S16777216x1_S_d0_1 : S16777216x1.ReducesTo [0, 1] S_
  h_S_ : 0 < S_.numel

variable [Facts₀]

class Facts : Prop extends Facts₀ where

variable [Facts]
-- ==== Proof.Consts.lean ====
/-
  The float constants the two programs spell, as the extended reals their patterns denote: 0.5 (the threshold of the
  first branch, and the reference's exponent), 1.0 (the value of the middle branch) and 16777216.0 = 2^24 (the number
  of rows, the divisor of the mean).
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `0.5` denotes the real `1/2`. -/
theorem ofBits_half : Ideal.ofBits .f32 0x3F000000#32 = ((1 / 2 : ℝ) : EReal) := by
  simp [Ideal.ofBits, Ideal.ieee, -EReal.coe_mul]; norm_num

/-- `1.0` denotes `1`. -/
theorem ofBits_one : Ideal.ofBits .f32 0x3F800000#32 = 1 := by
  simp [Ideal.ofBits, Ideal.ieee, -EReal.coe_mul]; norm_num

/-- `16777216.0` denotes the real `2^24`. -/
theorem ofBits_rows : Ideal.ofBits .f32 0x4B800000#32 = ((16777216 : ℝ) : EReal) := by
  simp [Ideal.ofBits, Ideal.ieee, -EReal.coe_mul]; norm_num

end Cert.Consts

end
-- ==== Proof.Spec.lean ====
/-
  The mathematics of the loss, free of any program.

  For a prediction `x` and a target `t` put `d = t - x`. A row contributes `d³` when `d ≥ 1/2`, `d⁴` when `d < 0`,
  and `1` otherwise; the loss is the square root of the mean of the contributions over the `2^24` rows. One program
  takes the square root, the other raises the mean to the power `1/2`: on the extended reals the two agree on a
  non-negative mean, and the mean is non-negative because every contribution is (`d³` is only taken for a positive
  `d`, `d⁴ = (d·d)·(d·d)` is a product of two equal-signed factors). No finiteness is needed for any of this.

  The two programs also add the contributions up in different orders: one in row order, the other per residue class of
  the row number — row `n = 128·r + l`, `r = 8192·(8·c + i) + 8·g + s`, is added into entry `(8·c + s, l)` of a
  `16 × 128` table, over the steps `i` and the groups `g`. Addition of extended reals is commutative and associative,
  so the sum of the table is the sum over the rows (`regroup`).
-/
import Idealize.ShloMosaic.PureOps.Ideal
import Idealize.ShloMosaic.Lib.ValueIdx
import proofs.«125636_j20985210208413_2_alg».proof.Proof.Consts

noncomputable section

namespace Cert.Spec

open Idealize.ShloMosaic

/-- One row's contribution: `d³` for `d ≥ 1/2`, `d⁴` for `d < 0`, else `1`, with `d = t - x`. -/
def term (x t : EReal) : EReal :=
  Scalar.select (Ideal.cmp .oge (t - x) (Ideal.ofBits .f32 0x3F000000#32)) (((t - x) * (t - x)) * (t - x))
    (Scalar.select (Ideal.cmp .olt (t - x) (Ideal.ofBits .f32 0x00000000#32)) (((t - x) * (t - x)) * ((t - x) * (t - x)))
      (Ideal.ofBits .f32 0x3F800000#32))

/-- Every contribution is non-negative, at the infinities too. -/
theorem term_nonneg (x t : EReal) : 0 ≤ term x t := by
  unfold term
  generalize t - x = d
  rw [Cert.Consts.ofBits_half, Cert.Consts.ofBits_zero, Cert.Consts.ofBits_one]
  unfold Ideal.cmp Scalar.select
  dsimp only
  by_cases h1 : ((1 / 2 : ℝ) : EReal) ≤ d
  · have hd : (0 : EReal) ≤ d := le_trans (by exact_mod_cast (by norm_num : (0 : ℝ) ≤ 1 / 2)) h1
    rw [if_pos (by rw [decide_eq_true h1]; rfl)]
    exact EReal.mul_nonneg (EReal.mul_nonneg hd hd) hd
  · rw [if_neg (by rw [decide_eq_false h1]; decide)]
    by_cases h2 : d < 0
    · have hdd : (0 : EReal) ≤ d * d := EReal.mul_nonneg_iff.mpr (Or.inr ⟨h2.le, h2.le⟩)
      rw [if_pos (by rw [decide_eq_true h2]; rfl)]
      exact EReal.mul_nonneg hdd hdd
    · rw [if_neg (by rw [decide_eq_false h2]; decide)]
      exact zero_le_one

/-- The loss from the sum of the contributions, as the kernel's wrapper computes it: the square root of the mean. -/
def lossSqrt (S : EReal) : EReal :=
  Ideal.sqrt (Ideal.div (Ideal.ofBits .f32 0x00000000#32 + S) (Ideal.ofBits .f32 0x4B800000#32))

/-- The loss as the reference computes it: the mean to the power one half. -/
def lossPow (S : EReal) : EReal :=
  Ideal.pow (Ideal.div (Ideal.ofBits .f32 0x00000000#32 + S) (Ideal.ofBits .f32 0x4B800000#32)) (Ideal.ofBits .f32 0x3F000000#32)

/-- On a non-negative sum the square root of the mean is the mean to the power one half: at `+∞` both are `+∞`,
    and on a non-negative real `√r = r ^ (1/2)`. -/
theorem lossSqrt_eq_lossPow {S : EReal} (hS : 0 ≤ S) : lossSqrt S = lossPow S := by
  unfold lossSqrt lossPow
  rw [Cert.Consts.ofBits_zero, Cert.Consts.ofBits_rows, Cert.Consts.ofBits_half, zero_add,
    Ideal.div_coe (by norm_num : (16777216 : ℝ) ≠ 0)]
  induction S using EReal.rec with
  | bot => exact absurd hS (by simp)
  | top =>
    rw [EReal.top_mul_coe_of_pos (by norm_num : (0 : ℝ) < 1 / 16777216)]
    show (⊤ : EReal) = if (0 : EReal) < ((1 / 2 : ℝ) : EReal) then ⊤ else _
    rw [if_pos (by exact_mod_cast (by norm_num : (0 : ℝ) < 1 / 2))]
  | coe r =>
    have hr : (0 : ℝ) ≤ r := by exact_mod_cast hS
    rw [← EReal.coe_mul]
    have hq : (0 : ℝ) ≤ r * (1 / 16777216) := mul_nonneg hr (by norm_num)
    show (if r * (1 / 16777216) < 0 then (⊥ : EReal) else ((Real.sqrt (r * (1 / 16777216)) : ℝ) : EReal))
      = ((Real.rpow (r * (1 / 16777216)) (1 / 2) : ℝ) : EReal)
    rw [if_neg (not_lt.mpr hq), Real.sqrt_eq_rpow]
    rfl

/-! ## Regrouping the sum -/

section Regroup

variable {M : Type*} [AddCommMonoid M]

/-- A sum over `a · b` consecutive numbers, taken `b` at a time. -/
theorem sum_blocks (N a b : ℕ) (hN : N = a * b) (f : ℕ → M) :
    ∑ q : Fin N, f q.val = ∑ i : Fin a, ∑ j : Fin b, f (b * i.val + j.val) := by
  subst hN
  rw [← finProdFinEquiv.sum_comp, Fintype.sum_prod_type]
  refine Finset.sum_congr rfl fun i _ => Finset.sum_congr rfl fun j _ => ?_
  congr 1
  show j.val + b * i.val = b * i.val + j.val
  omega

/-- The sum of the `16 × 128` table of partial sums is the sum over all `2^24` rows. -/
theorem regroup (f : ℕ → M) :
    ∑ ρ : Fin 16, ∑ l : Fin 128, ∑ i : Fin 8, ∑ g : Fin 1024,
        f (128 * (8192 * (8 * (ρ.val / 8) + i.val) + 8 * g.val + ρ.val % 8) + l.val)
      = ∑ n : Fin 16777216, f n.val := by
  rw [sum_blocks 16777216 131072 128 (by norm_num) f,
    sum_blocks 131072 16 8192 (by norm_num) (fun r => ∑ l : Fin 128, f (128 * r + l.val)),
    sum_blocks 16 2 8 (by norm_num) (fun b => ∑ q : Fin 8192, ∑ l : Fin 128, f (128 * (8192 * b + q.val) + l.val)),
    sum_blocks 16 2 8 (by norm_num) (fun ρ => ∑ l : Fin 128, ∑ i : Fin 8, ∑ g : Fin 1024,
        f (128 * (8192 * (8 * (ρ / 8) + i.val) + 8 * g.val + ρ % 8) + l.val))]
  refine Finset.sum_congr rfl fun c _ => ?_
  -- right: Σ i, Σ q, Σ l ; split q = 8 g + s
  have hq : ∀ i : Fin 8, (∑ q : Fin 8192, ∑ l : Fin 128, f (128 * (8192 * (8 * c.val + i.val) + q.val) + l.val))
      = ∑ g : Fin 1024, ∑ s : Fin 8, ∑ l : Fin 128, f (128 * (8192 * (8 * c.val + i.val) + (8 * g.val + s.val)) + l.val) :=
    fun i => sum_blocks 8192 1024 8 (by norm_num)
      (fun q => ∑ l : Fin 128, f (128 * (8192 * (8 * c.val + i.val) + q) + l.val))
  simp only [hq]
  -- left: (8 c + s) / 8 = c, (8 c + s) % 8 = s
  have hl : ∀ s : Fin 8, (8 * c.val + s.val) / 8 = c.val ∧ (8 * c.val + s.val) % 8 = s.val := fun s => by
    have := s.isLt; omega
  simp only [fun s : Fin 8 => (hl s).1, fun s : Fin 8 => (hl s).2]
  -- left is Σ s, Σ l, Σ i, Σ g ; right is Σ i, Σ g, Σ s, Σ l
  symm
  calc (∑ i : Fin 8, ∑ g : Fin 1024, ∑ s : Fin 8, ∑ l : Fin 128,
          f (128 * (8192 * (8 * c.val + i.val) + (8 * g.val + s.val)) + l.val))
      = ∑ i : Fin 8, ∑ s : Fin 8, ∑ g : Fin 1024, ∑ l : Fin 128,
          f (128 * (8192 * (8 * c.val + i.val) + (8 * g.val + s.val)) + l.val) :=
        Finset.sum_congr rfl fun i _ => Finset.sum_comm
    _ = ∑ s : Fin 8, ∑ i : Fin 8, ∑ g : Fin 1024, ∑ l : Fin 128,
          f (128 * (8192 * (8 * c.val + i.val) + (8 * g.val + s.val)) + l.val) := Finset.sum_comm
    _ = ∑ s : Fin 8, ∑ i : Fin 8, ∑ l : Fin 128, ∑ g : Fin 1024,
          f (128 * (8192 * (8 * c.val + i.val) + (8 * g.val + s.val)) + l.val) :=
        Finset.sum_congr rfl fun s _ => Finset.sum_congr rfl fun i _ => Finset.sum_comm
    _ = ∑ s : Fin 8, ∑ l : Fin 128, ∑ i : Fin 8, ∑ g : Fin 1024,
          f (128 * (8192 * (8 * c.val + i.val) + (8 * g.val + s.val)) + l.val) :=
        Finset.sum_congr rfl fun s _ => Finset.sum_comm
    _ = _ := by
        refine Finset.sum_congr rfl fun s _ => Finset.sum_congr rfl fun l _ => Finset.sum_congr rfl fun i _ =>
          Finset.sum_congr rfl fun g _ => ?_
        congr 1
        omega

end Regroup

/-! ## The rows, the steps' sums, the table -/

open Idealize.ShloMosaic.ValueIdx

/-- Row `n`'s contribution, read off the two `2^24 × 1` argument arrays (and `0` past the last row, so that the
    function is total on the naturals). -/
def flat (a0 a1 : (⟨2, ![16777216, 1]⟩ : Shape).Idx → EReal) (n : ℕ) : EReal :=
  if h : n < 16777216 then term (a0 (ix2 ⟨n, h⟩ 0)) (a1 (ix2 ⟨n, h⟩ 0)) else 0

theorem flat_of_lt (a0 a1 : (⟨2, ![16777216, 1]⟩ : Shape).Idx → EReal) {n : ℕ} (h : n < 16777216) :
    flat a0 a1 n = term (a0 (ix2 ⟨n, h⟩ 0)) (a1 (ix2 ⟨n, h⟩ 0)) := dif_pos h

theorem flat_nonneg (a0 a1 : (⟨2, ![16777216, 1]⟩ : Shape).Idx → EReal) (n : ℕ) : 0 ≤ flat a0 a1 n := by
  unfold flat
  split
  · exact term_nonneg _ _
  · exact le_refl _

/-- What grid step `τ` (block `τ` of 8192 rows of 128 lanes) adds to the table at sublane `s`, lane `l`: the rows
    `8192·τ + 8·g + s` of the `131072 × 128` view, lane `l`, over the groups `g`. -/
def blockSum (f : ℕ → EReal) (τ s l : ℕ) : EReal :=
  ∑ g : Fin 1024, f (128 * (8192 * τ + 8 * g.val + s) + l)

/-- Entry `(ρ, l)` of the `16 × 128` table the kernel hands to its wrapper: core `ρ / 8`'s eight steps at sublane
    `ρ % 8`. -/
def table (f : ℕ → EReal) (ρ l : ℕ) : EReal :=
  ∑ i : Fin 8, blockSum f (8 * (ρ / 8) + i.val) (ρ % 8) l

/-- The table's entries add up to the sum over all rows. -/
theorem sum_table (f : ℕ → EReal) :
    ∑ ρ : Fin 16, ∑ l : Fin 128, table f ρ.val l.val = ∑ n : Fin 16777216, f n.val :=
  regroup f

/-- The sum of the table of non-negative contributions is non-negative. -/
theorem sum_table_nonneg (f : ℕ → EReal) (hf : ∀ n, 0 ≤ f n) :
    0 ≤ ∑ ρ : Fin 16, ∑ l : Fin 128, table f ρ.val l.val := by
  rw [sum_table]
  exact Finset.sum_nonneg fun n _ => hf n.val

/-- The two programs' results from the arguments: the kernel's wrapper takes the square root of the mean of the
    table's total, the reference the power one half of the mean of the rows' total. They are equal. -/
theorem loss_eq (f : ℕ → EReal) (hf : ∀ n, 0 ≤ f n) :
    lossSqrt (∑ ρ : Fin 16, ∑ l : Fin 128, table f ρ.val l.val) = lossPow (∑ n : Fin 16777216, f n.val) := by
  rw [lossSqrt_eq_lossPow (sum_table_nonneg f hf), sum_table]

end Cert.Spec

end
-- ==== Proof.RefSide.lean ====
/-
  The reference's result, read one operation at a time.

  Row by row the reference forms the same contribution as the kernel — the same subtraction, the same products for the
  cube and the fourth power, the same two comparisons and selections — then adds all `2^24` of them up from zero,
  divides by the number of rows and raises the mean to the power one half.
-/
import proofs.«125636_j20985210208413_2_alg».proof.Defs
import proofs.«125636_j20985210208413_2_alg».proof.Proof.Gen.ReferenceIdeal.Read
import proofs.«125636_j20985210208413_2_alg».proof.Proof.Spec
import Idealize.ShloMosaic.Lib.ValueIdx
import Idealize.ShloMosaic.Lib.Pipeline.Value
import Idealize.ShloMosaic.PureOps.Ideal.Laws

noncomputable section

namespace Cert.RefSide

open Idealize.ShloMosaic Idealize.ShloMosaic.ValueIdx
open Cert.ReferenceIdeal Cert.ReferenceIdeal.Gen Cert.ReferenceIdeal.Read Cert.Spec

/-- The reference's summand at a row is that row's contribution. -/
theorem summand_apply (x0 x1 : S16777216x1.Idx → EReal) (j : S16777216x1.Idx) :
    val_main_v11 (F := Ideal) x0 x1 j = term (x0 j) (x1 j) := by
  simp only [val_main_v11_apply, val_main_v10_apply, val_main_v9_apply, val_main_v8_apply, val_main_v7_apply,
    val_main_v6_apply, val_main_v5_apply, val_main_v4_apply, val_main_v3_apply, val_main_v2_apply, val_main_v1_apply,
    val_main_v0_apply, val_main_cst_apply, val_main_cst_0_apply, val_main_cst_1_apply]
  rfl

/-- The sum over the `2^24 × 1` index set is the sum over the row numbers. -/
theorem sum_rows (x0 x1 : S16777216x1.Idx → EReal) :
    ∑ j : S16777216x1.Idx, term (x0 j) (x1 j) = ∑ n : Fin 16777216, flat x0 x1 n.val := by
  rw [sum_idx2]
  refine Finset.sum_congr rfl fun n _ => ?_
  rw [Fin.sum_univ_one]
  exact (flat_of_lt x0 x1 n.isLt).symm

/-- The reference's result: the mean of the rows' contributions to the power one half. -/
theorem result_eq (x0 x1 : S16777216x1.Idx → EReal) :
    val_main_v14 (F := Ideal) x0 x1 = fun _ => lossPow (∑ n : Fin 16777216, flat x0 x1 n.val) := by
  funext i
  rw [val_main_v14_apply, val_main_v13_apply, val_main_v12_apply, val_main_cst_2_apply, val_main_cst_3_apply,
    val_main_cst_4_apply]
  simp only [summand_apply]
  rw [sum_rows]
  rfl

end Cert.RefSide

end
-- ==== Proof.Cases.lean ====
/-
  What one run of the kernel body leaves behind, in each of its three control cases.

  The body keeps a running 8 × 128 table in a scratch buffer. At the first step of a row of the grid it zeroes the
  table first; at every step it stores the table plus the step's sums; at the last step of the row it also copies the
  table, as just stored, to the output block. So in every case the scratch ends at the body's one arithmetic term over
  the two input blocks and the table before — the zero table in the first case — and in the last case the output block
  ends at the same term.
-/
import proofs.«125636_j20985210208413_2_alg».proof.Proof.Gen.KernelIdeal.Frame
import Idealize.ShloMosaic.Lib.Pipeline.Value
import Idealize.ShloMosaic.Lib.Tactic

set_option maxRecDepth 16384

noncomputable section

namespace Cert.KernelIdeal.Cases

open Idealize.ShloMosaic Idealize.ShloMosaic.TcCoe Idealize.SL.Sem Idealize.ShloMosaic.Tactic
open Cert.KernelIdeal Cert.KernelIdeal.Gen

variable {F : FTy → Type} [FloatOps F]

/-- The origin of a two-axis rectangle, spelt as the constant function. -/
theorem hz : (![0, 0] : Fin 2 → Nat) = fun _ => 0 := funext fun a => by fin_cases a <;> rfl

/-- A middle step: the scratch ends at the body's term over the blocks and the table before. -/
theorem sout_B (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole) (hc0 : ¬cond0_0 i) (hc1 : ¬cond0_1 i)
    (x0 x1 : Vec F S8192x128 .f32) (xs0 : Vec F S8x128 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S8192x128) hz,
    View.ld_unit_zero (S := S8x128) hz]

/-- The last step of a row of the grid: the scratch likewise; -/
theorem sout_C (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole) (hc0 : ¬cond0_0 i) (hc1 : cond0_1 i)
    (x0 x1 : Vec F S8192x128 .f32) (xs0 : Vec F S8x128 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S8192x128) hz,
    View.ld_unit_zero (S := S8x128) hz]

/-- and the output block, a copy of the scratch as just stored, ends at the same term. -/
theorem out_C (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole) (hc0 : ¬cond0_0 i) (hc1 : cond0_1 i)
    (x0 x1 : Vec F S8192x128 .f32) (xs0 : Vec F S8x128 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S8x128) _ hz]
  simp only [View.readAt_eq_ld, h2.read_unread, h3.read_unread, h5.read_unread, View.ld_unit_zero (S := S8192x128) hz,
    View.ld_unit_zero (S := S8x128) hz]

/-- The first step of a row of the grid: the table before is the zero table the step itself stores. -/
theorem sout_A (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole) (hc0 : cond0_0 i) (hc1 : ¬cond0_1 i)
    (x0 x1 : Vec F S8192x128 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S8x128) hz, View.readCov_unit_zero (S := S8x128) _ hz]
  simp only [View.readAt_eq_ld, h2.read_unread, h3.read_unread, View.ld_unit_zero (S := S8192x128) hz]

end Cert.KernelIdeal.Cases

end
-- ==== Proof.Payload.lean ====
/-
  The kernel body's arithmetic read at an entry.

  At one grid step the body holds a block of 8192 × 128 predictions and the matching block of targets. It forms each
  entry's contribution, views the block as 1024 groups of 8 rows, adds the groups up — entry `(s, l)` of the 8 × 128
  result collects the rows `8·g + s` of the block, lane `l`, over the groups `g` — and adds that to the running table.
-/
import proofs.«125636_j20985210208413_2_alg».proof.Proof.Gen.KernelIdeal.Skeleton
import proofs.«125636_j20985210208413_2_alg».proof.Proof.Spec
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- Row `8·g + s` of a block: the row of group `g` at sublane `s`. -/
def row (g : Fin 1024) (s : Fin 8) : Fin 8192 := ⟨8 * g.val + s.val, by have := g.isLt; have := s.isLt; omega⟩

/-- What the step adds to the table at entry `(s, l)`: the contributions of the block's rows `8·g + s`, lane `l`. -/
def stepSum (x t : Vec Ideal S8192x128 .f32) (s : Fin 8) (l : Fin 128) : EReal :=
  ∑ g : Fin 1024, Cert.Spec.term (x (ix2 (row g s) l)) (t (ix2 (row g s) l))

/-- The stored table at entry `(s, l)`: the table before, plus the step's sum. -/
theorem pay2_apply (x t : Vec Ideal S8192x128 .f32) (acc : Vec Ideal S8x128 .f32) (s : Fin 8) (l : Fin 128) :
    k0_pay2 (F := Ideal) x t acc (ix2 s l) = acc (ix2 s l) + stepSum x t s l := by
  unfold k0_pay2 stepSum
  simp only [shapeCast_self]
  refine (addf_apply _ _ _).trans ?_
  congr 1
  refine (Ideal.multiReduction_add_single _ _ reduces_S1024x8x128_S8x128 (.inl rfl) rfl (ix2 s l)).trans ?_
  refine Finset.sum_congr rfl fun g _ => ?_
  refine (shapeCast_apply _ shapeCasts_S8192x128_S1024x8x128 _ (ix2 (row g s) l) ?_).trans ?_
  · rw [Shape.rowMajor_val_two, Shape.rowMajor_val_three]
    show (8 * g.val + s.val) * 128 + l.val = (g.val * 8 + s.val) * 128 + l.val
    omega
  · rfl

/-- The zero table the first step of a row of the grid stores. -/
theorem pay1_apply (j : S8x128.Idx) : k0_pay1 (F := Ideal) j = 0 := by
  unfold k0_pay1
  simp only [shapeCast_self]
  exact Cert.Consts.ofBits_zero

end Cert.KernelIdeal.Pay

end
-- ==== Proof.Blocks.lean ====
/-
  The blocks the kernel body is handed, read back to the argument arrays.

  Before the region the two `2^24 × 1` arguments are re-viewed as `131072 × 128`: entry `(r, l)` of the view is row
  `128·r + l` of the argument. Grid step `t` (of 16, in row-major order of the `2 × 8` grid) is handed block `t` of
  8192 rows of each view, so entry `(q, l)` of its block is row `128·(8192·t + q) + l` of the argument; and the output
  block of step `t` is block `t / 8` of the `16 × 128` table.
-/
import proofs.«125636_j20985210208413_2_alg».proof.Proof.Gen.KernelIdeal.Frame
import proofs.«125636_j20985210208413_2_alg».proof.Proof.Payload
import Idealize.ShloMosaic.Lib.StableHlo.Run
import Idealize.ShloMosaic.Lib.Tactic

set_option maxRecDepth 16384

noncomputable section

namespace Cert.KernelIdeal.Blocks

open Idealize.ShloMosaic Idealize.ShloMosaic.TcCoe Idealize.SL.Sem Idealize.ShloMosaic.ValueIdx
open Idealize.ShloMosaic.StableHlo
open Cert.KernelIdeal Cert.KernelIdeal.Gen Cert.KernelIdeal.Pay Cert.Spec

variable (m : (ℓ : Loc nD τ sig) → Buf (Elt Ideal) ℓ)

/-- The window's block indices at step `t`, decided over the grid: the inputs' block is `t`, the output's `t / 8`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 8 ∧ win0_2.index t (1 : Fin 2) = 0 :=
  (by decide +kernel : ∀ t : Fin grid0.N, _)

/-- The `131072 × 128` view of a `2^24 × 1` array at `(r, l)` is the array's row `128·r + l`. -/
theorem view_apply (a : S16777216x1.Idx → EReal) (r : Fin 131072) (l : Fin 128) (h : 128 * r.val + l.val < 16777216) :
    shapeCast S131072x128 a shapeCasts_S16777216x1_S131072x128 (ix2 r l) = a (ix2 ⟨128 * r.val + l.val, h⟩ 0) := by
  refine shapeCast_apply a shapeCasts_S16777216x1_S131072x128 (ix2 r l) (ix2 ⟨128 * r.val + l.val, h⟩ 0) ?_
  rw [Shape.rowMajor_val_two, Shape.rowMajor_val_two]
  show (128 * r.val + l.val) * 1 + 0 = r.val * 128 + l.val
  omega

/-- The region finds the first view in place of `main_v0`, -/
theorem V_v0 (c : Dev nD) : (V m c main_v0 : S131072x128.Idx → EReal)
    = shapeCast S131072x128 (m ((c : Thread nD τ).loc main_arg0)) shapeCasts_S16777216x1_S131072x128 := by
  show StableHlo.after hostOps0 (fun b => m (c, b)) (Proc.devRef .tc main_v0) = _
  after_results
  rfl

/-- and the second in place of `main_v1`. -/
theorem V_v1 (c : Dev nD) : (V m c main_v1 : S131072x128.Idx → EReal)
    = shapeCast S131072x128 (m ((c : Thread nD τ).loc main_arg1)) shapeCasts_S16777216x1_S131072x128 := by
  show StableHlo.after hostOps0 (fun b => m (c, b)) (Proc.devRef .tc main_v1) = _
  after_results
  rfl

/-- Entry `(q, l)` of step `t`'s block of predictions is row `128·(8192·t + q) + l` of the first argument. -/
theorem iblk0_apply (c : Dev nD) (t : Fin cfg0.N) (q : Fin 8192) (l : Fin 128)
    (h : 128 * (8192 * t.val + q.val) + l.val < 16777216) :
    (iblk m c 0 t : Vec Ideal S8192x128 .f32) (ix2 q l)
      = m ((c : Thread nD τ).loc main_arg0) (ix2 ⟨128 * (8192 * t.val + q.val) + l.val, h⟩ 0) := by
  obtain ⟨e0, e1, -, -, -, -⟩ := idx_facts t
  have hr : 8192 * t.val + q.val < 131072 := by have := q.isLt; have := l.isLt; omega
  unfold iblk
  rw [View.read_apply]
  show V m c main_v0 (((cfg0.win 0).blk t).view.emb (ix2 q l)) = _
  refine (congrFun (V_v0 m c) _).trans ?_
  have he : ((cfg0.win 0).blk t).view.emb (ix2 q l) = (ix2 (⟨8192 * t.val + q.val, hr⟩ : Fin 131072) l : S131072x128.Idx) := by
    funext a; apply Fin.ext
    match a with
    | ⟨0, _⟩ => show win0_0.index t (0 : Fin 2) * 8192 + 1 * q.val = 8192 * t.val + q.val; rw [e0]; omega
    | ⟨1, _⟩ => show win0_0.index t (1 : Fin 2) * 128 + 1 * l.val = l.val; rw [e1]; omega
  rw [he]
  exact view_apply _ ⟨8192 * t.val + q.val, hr⟩ l h

/-- The same of the block of targets and the second argument. -/
theorem iblk1_apply (c : Dev nD) (t : Fin cfg0.N) (q : Fin 8192) (l : Fin 128)
    (h : 128 * (8192 * t.val + q.val) + l.val < 16777216) :
    (iblk m c 1 t : Vec Ideal S8192x128 .f32) (ix2 q l)
      = m ((c : Thread nD τ).loc main_arg1) (ix2 ⟨128 * (8192 * t.val + q.val) + l.val, h⟩ 0) := by
  obtain ⟨-, -, e0, e1, -, -⟩ := idx_facts t
  have hr : 8192 * t.val + q.val < 131072 := by have := q.isLt; have := l.isLt; omega
  unfold iblk
  rw [View.read_apply]
  show V m c main_v1 (((cfg0.win 1).blk t).view.emb (ix2 q l)) = _
  refine (congrFun (V_v1 m c) _).trans ?_
  have he : ((cfg0.win 1).blk t).view.emb (ix2 q l) = (ix2 (⟨8192 * t.val + q.val, hr⟩ : Fin 131072) l : S131072x128.Idx) := by
    funext a; apply Fin.ext
    match a with
    | ⟨0, _⟩ => show win0_1.index t (0 : Fin 2) * 8192 + 1 * q.val = 8192 * t.val + q.val; rw [e0]; omega
    | ⟨1, _⟩ => show win0_1.index t (1 : Fin 2) * 128 + 1 * l.val = l.val; rw [e1]; omega
  rw [he]
  exact view_apply _ ⟨8192 * t.val + q.val, hr⟩ l h

/-- The rows' contributions, as one function of the row number, of core `c`'s arguments. -/
abbrev rows (c : Dev nD) : ℕ → EReal :=
  flat (m ((c : Thread nD τ).loc main_arg0)) (m ((c : Thread nD τ).loc main_arg1))

/-- What step `t` adds to the table at `(s, l)` is the block sum of the rows' contributions at block `t`. -/
theorem stepSum_iblk (c : Dev nD) (t : Fin cfg0.N) (s : Fin 8) (l : Fin 128) :
    stepSum (iblk m c 0 t) (iblk m c 1 t) s l = blockSum (rows m c) t.val s.val l.val := by
  have hN : t.val < 16 := lt_of_lt_of_eq t.isLt (show cfg0.N = 16 from N_0)
  unfold stepSum blockSum
  refine Finset.sum_congr rfl fun g _ => ?_
  have h : 128 * (8192 * t.val + (row g s).val) + l.val < 16777216 := by
    have := (row g s).isLt; have := l.isLt; omega
  rw [iblk0_apply m c t (row g s) l h, iblk1_apply m c t (row g s) l h]
  have hn : 128 * (8192 * t.val + 8 * g.val + s.val) + l.val = 128 * (8192 * t.val + (row g s).val) + l.val := by
    show _ = 128 * (8192 * t.val + (8 * g.val + s.val)) + l.val
    omega
  rw [hn]
  exact (flat_of_lt _ _ h).symm

end Cert.KernelIdeal.Blocks

end
-- ==== Proof.Accum.lean ====
/-
  The running table, step by step.

  Within one core's row of the grid the first step leaves the step's sums (the table having been zeroed), each later
  step adds its sums to what the step before left, and the last step hands the table to the output block. So after
  step `n` the table holds, at each entry, the block sums of the steps `8·(n / 8), …, n` — by induction on the step —,
  and the output block written at the last step of the row holds the block sums of all eight.
-/
import proofs.«125636_j20985210208413_2_alg».proof.Proof.Cases
import proofs.«125636_j20985210208413_2_alg».proof.Proof.Blocks

set_option maxRecDepth 16384

noncomputable section

namespace Cert.KernelIdeal.Acc

open Idealize.ShloMosaic Idealize.ShloMosaic.TcCoe Idealize.SL.Sem Idealize.ShloMosaic.ValueIdx
open Cert.KernelIdeal Cert.KernelIdeal.Gen Cert.KernelIdeal.Pay Cert.KernelIdeal.Cases Cert.KernelIdeal.Blocks Cert.Spec

variable (m : (ℓ : Loc nD τ sig) → Buf (Elt Ideal) ℓ)

/-- The body's term at any entry of the table: the table before there, plus the step's sum there. -/
theorem pay2_at (x t : Vec Ideal S8192x128 .f32) (acc : Vec Ideal S8x128 .f32) (y : S8x128.Idx) :
    k0_pay2 (F := Ideal) x t acc y = acc y + stepSum x t (y 0) (y 1) := by
  obtain ⟨s, l, rfl⟩ : ∃ (s : Fin 8) (l : Fin 128), y = ix2 s l := ⟨y 0, y 1, eq_ix2 y⟩
  exact pay2_apply x t acc s l

/-- After a first step of a row the scratch holds the body's term over the zero table; -/
theorem scratch_A (c : Dev nD) (t : Fin cfg0.N) (h0 : t.val % 8 = 0) (h1 : ¬t.val % 8 = 7) :
    (outsAt0 m c t.val t.isLt).2 = k0_pay2 (F := Ideal) (iblk m c 0 t) (iblk m c 1 t) (k0_pay1 (F := Ideal)) := by
  rw [outsAt0_A m c t h0 h1]
  exact sout_A (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- after a middle step, over what the step before left; -/
theorem scratch_B (c : Dev nD) (t : Fin cfg0.N) (h0 : ¬t.val % 8 = 0) (h1 : ¬t.val % 8 = 7) :
    (outsAt0 m c t.val t.isLt).2 = k0_pay2 (F := Ideal) (iblk m c 0 t) (iblk m c 1 t)
      (outsAt0 m c (t.val - 1) (Nat.lt_of_le_of_lt (Nat.sub_le _ _) t.isLt)).2 := by
  rw [outsAt0_B m c t h0 h1]
  exact sout_B (F := Ideal) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- after a last step likewise, -/
theorem scratch_C (c : Dev nD) (t : Fin cfg0.N) (h0 : ¬t.val % 8 = 0) (h1 : t.val % 8 = 7) :
    (outsAt0 m c t.val t.isLt).2 = k0_pay2 (F := Ideal) (iblk m c 0 t) (iblk m c 1 t)
      (outsAt0 m c (t.val - 1) (Nat.lt_of_le_of_lt (Nat.sub_le _ _) t.isLt)).2 := by
  rw [outsAt0_C m c t h0 h1]
  exact sout_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- and then the output block holds what the scratch holds. -/
theorem out_eq_scratch (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  exact (out_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).trans
    (sout_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).symm

/-- A first step of a row leaves its own block sum at each entry. -/
theorem scratch_first (c : Dev nD) (t : Fin cfg0.N) (h0 : t.val % 8 = 0) (y : S8x128.Idx) :
    (outsAt0 m c t.val t.isLt).2 y = blockSum (rows m c) t.val (y 0).val (y 1).val := by
  rw [scratch_A m c t h0 (by omega), pay2_at (iblk m c 0 t) (iblk m c 1 t) _ y, pay1_apply, zero_add,
    stepSum_iblk m c t (y 0) (y 1)]

/-- A later step adds its block sum to what the step before left. -/
theorem scratch_next (c : Dev nD) (t : Fin cfg0.N) (h0 : ¬t.val % 8 = 0) (y : S8x128.Idx) :
    (outsAt0 m c t.val t.isLt).2 y
      = (outsAt0 m c (t.val - 1) (Nat.lt_of_le_of_lt (Nat.sub_le _ _) t.isLt)).2 y
        + blockSum (rows m c) t.val (y 0).val (y 1).val := by
  by_cases h1 : t.val % 8 = 7
  · rw [scratch_C m c t h0 h1, pay2_at (iblk m c 0 t) (iblk m c 1 t) _ y, stepSum_iblk m c t (y 0) (y 1)]
  · rw [scratch_B m c t h0 h1, pay2_at (iblk m c 0 t) (iblk m c 1 t) _ y, stepSum_iblk m c t (y 0) (y 1)]

/-- After step `n` the scratch holds, at each entry, the block sums of its row's steps up to `n`. -/
theorem scratch_apply (c : Dev nD) : ∀ (n : ℕ) (h : n < cfg0.N) (y : S8x128.Idx),
    (outsAt0 m c n h).2 y
      = ∑ k ∈ Finset.range (n % 8 + 1), blockSum (rows m c) (8 * (n / 8) + k) (y 0).val (y 1).val
  | 0, h, y => by
    rw [scratch_first m c ⟨0, h⟩ rfl y]
    simp
  | n + 1, h, y => by
    by_cases h0 : (n + 1) % 8 = 0
    · rw [scratch_first m c ⟨n + 1, h⟩ h0 y, h0, Finset.sum_range_one]
      show blockSum (rows m c) (n + 1) _ _ = blockSum (rows m c) (8 * ((n + 1) / 8) + 0) _ _
      congr 1
      omega
    · rw [scratch_next m c ⟨n + 1, h⟩ h0 y]
      show (outsAt0 m c n _).2 y + blockSum (rows m c) (n + 1) _ _ = _
      rw [scratch_apply c n _ y, show (n + 1) % 8 + 1 = (n % 8 + 1) + 1 by omega, show (n + 1) / 8 = n / 8 by omega,
        Finset.sum_range_succ _ (n % 8 + 1), show 8 * (n / 8) + (n % 8 + 1) = n + 1 by omega]

/-- The output block written at the last step `t` of a row holds the block sums of the row's eight steps. -/
theorem out_apply (c : Dev nD) (t : Fin cfg0.N) (h1 : t.val % 8 = 7) (y : S8x128.Idx) :
    (outsAt0 m c t.val t.isLt).1 y = ∑ i : Fin 8, blockSum (rows m c) (8 * (t.val / 8) + i.val) (y 0).val (y 1).val := by
  rw [out_eq_scratch m c t (by omega) h1, scratch_apply m c t.val t.isLt y, h1, Finset.sum_range]

end Cert.KernelIdeal.Acc

end
-- ==== Proof.Final.lean ====
/-
  The kernel's result.

  The `16 × 128` output array is written twice, once per core, each time at the last step of the core's row: block
  `c` of 8 rows receives core `c`'s table. So after the region the array is the table of the block sums, entry by
  entry. The wrapper then adds the table up, divides by the number of rows and takes the square root.
-/
import proofs.«125636_j20985210208413_2_alg».proof.Proof.Accum

set_option maxRecDepth 16384

noncomputable section

namespace Cert.KernelIdeal.Final

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.KernelIdeal.Blocks Cert.KernelIdeal.Acc Cert.Spec

variable (m : (ℓ : Loc nD τ sig) → Buf (Elt Ideal) ℓ) (ρ : Dev nD → PrngReg)

/-- The table, as contents of the output array. -/
def tableArr (c : Dev nD) : S16x128.Idx → EReal := fun i => table (rows m c) (i 0).val (i 1).val

/-- What the last step `t` of a row writes back is block `t / 8` of the table. -/
theorem flushed_eq (c : Dev nD) (t : Fin cfg0.N) (hf : (cfg0.win 2).flush t = true) :
    (dats m 0 c).flushed 2 t = ((cfg0.win 2).blk t).view.read (Elt Ideal) (tableArr m c) := by
  have h7 : t.val % 8 = 7 := (flush0_2 t).mp hf
  obtain ⟨-, -, -, -, e0, e1⟩ := idx_facts t
  show (cfg0.win 2).cut (grid0.coords t) ((dats m 0 c).after 2 t) = _
  rw [after0_2]
  funext y
  show (outsAt0 m c t.val t.isLt).1 y = tableArr m c (((cfg0.win 2).blk t).view.emb y)
  refine (out_apply m c t h7 y).trans ?_
  unfold tableArr table
  have hy : (y 0).val < 8 := (y 0).isLt
  have ha : ((((cfg0.win 2).blk t).view.emb y) 0).val = 8 * (t.val / 8) + (y 0).val := by
    show win0_2.index t (0 : Fin 2) * 8 + 1 * (y 0).val = _
    rw [e0]; omega
  have hb : ((((cfg0.win 2).blk t).view.emb y) 1).val = (y 1).val := by
    show win0_2.index t (1 : Fin 2) * 128 + 1 * (y 1).val = _
    rw [e1]; omega
  rw [ha, hb, show (8 * (t.val / 8) + (y 0).val) / 8 = t.val / 8 by omega,
    show (8 * (t.val / 8) + (y 0).val) % 8 = (y 0).val by omega]

/-- An entry of the array is in step `t`'s block iff each coordinate is in the block's range. -/
theorem mem_blk (t : Fin cfg0.N) (i : S16x128.Idx) :
    i ∈ ((cfg0.win 2).blk t).view.set ↔ ∀ a : Fin 2, win0_2.index t a * S8x128.size a ≤ (i a).val
      ∧ (i a).val < win0_2.index t a * S8x128.size a + S8x128.size a := by
  show i ∈ ((View.whole main_v2).slice (win0_2.rect t)).set ↔ _
  rw [View.set_slice_whole, Rect.mem_set_unit]
  exact Iff.rfl

/-- The two write-backs cover the array, so it ends holding the table. -/
theorem final (c : Dev nD) : (dats m 0 c).arrAt 2 cfg0.N = tableArr m c :=
  (dats m 0 c).arrAt_eq_of_cover 2 (tableArr m c) (flushed_eq m c) fun i => by
    have hi0 : (i 0).val < 16 := (i 0).isLt
    have hi1 : (i 1).val < 128 := (i 1).isLt
    have hN : cfg0.N = 16 := N_0
    obtain ⟨t, ht⟩ : ∃ t : Fin cfg0.N, t.val = 8 * ((i 0).val / 8) + 7 := ⟨⟨8 * ((i 0).val / 8) + 7, by omega⟩, rfl⟩
    obtain ⟨-, -, -, -, e0, e1⟩ := idx_facts t
    refine ⟨t, (flush0_2 t).mpr (by omega), ?_⟩
    rw [mem_blk]
    intro a
    match a with
    | ⟨0, _⟩ =>
      show win0_2.index t (0 : Fin 2) * 8 ≤ (i 0).val ∧ (i 0).val < win0_2.index t (0 : Fin 2) * 8 + 8
      rw [e0]; omega
    | ⟨1, _⟩ =>
      show win0_2.index t (1 : Fin 2) * 128 ≤ (i 1).val ∧ (i 1).val < win0_2.index t (1 : Fin 2) * 128 + 128
      rw [e1]; omega

/-- The wrapper's lines applied to the table: the square root of the mean of its total. -/
theorem tail_eq (c : Dev nD) :
    Pipeline.afterTail₀ cfgs (dats m) 0 (V0 m) [hostOps1] c main_v5
      = fun _ => lossSqrt (∑ ρ : Fin 16, ∑ l : Fin 128, table (rows m c) ρ.val l.val) := by
  unfold Pipeline.afterTail₀
  show StableHlo.after hostOps1 _ (Proc.devRef .tc main_v5) = _
  after_results
  have hw : Pipeline.withArrays (cfgs 0).spec c (V0 m c) (fun w => (dats m 0 c).arrAt w (cfgs 0).N)
      (Proc.devRef .tc main_v2) = tableArr m c :=
    (Pipeline.withArrays_arr spec0 launch0.win.arr_inj c _ _ 2).trans (final m c)
  rw [hw]
  funext j
  show Ideal.sqrt (Ideal.div (Host.reduceAdd (F := Ideal) (tableArr m c) (constant (F := Ideal) S_ .f32 0x00000000#32)
    reducesTo_S16x128_S_d0_1 h_S_ j) (Ideal.ofBits .f32 0x4B800000#32)) = _
  have hs : Host.reduceAdd (F := Ideal) (tableArr m c) (constant (F := Ideal) S_ .f32 0x00000000#32)
      reducesTo_S16x128_S_d0_1 h_S_ j = Ideal.ofBits .f32 0x00000000#32 + ∑ i : S16x128.Idx, tableArr m c i := by
    simp only [Host.reduceAdd, Ideal.hostReduceAdd_def]
    exact Ideal.hostReduceAdd_total reducesTo_S16x128_S_d0_1 (fun b => b.elim0) _ _ j
  rw [hs, sum_idx2]
  rfl

/-- The kernel's run, read: its result is the square root of the mean of the table's total, its arguments are as
    they were. -/
theorem run : θ_run defs (onTc (τ := τ) (main (F := Ideal))) ⟨m, fun _ => 0, ρ⟩ fun r => ∀ c : Dev nD,
      r.2.mem ((c.tc : Thread nD τ).loc main_v5)
        = (fun _ => lossSqrt (∑ ρ : Fin 16, ∑ l : Fin 128, table (rows m c) ρ.val l.val))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.lean ====
/-
  The kernel and its reference compute one loss.

  For predictions `x` and targets `t` over `2^24` rows put `d = t - x`; a row contributes `d³` if `d ≥ 1/2`, `d⁴` if
  `d < 0` and `1` otherwise, and the loss is the square root of the mean contribution.

  The reference adds the contributions in row order and raises the mean to the power `1/2`. The kernel views the rows
  as a `131072 × 128` array, walks it in 16 blocks of 8192 rows — two cores, eight steps each —, folds each block's
  1024 groups of 8 rows into an `8 × 128` table kept across a core's steps, writes each core's table to its half of
  a `16 × 128` array, and its wrapper sums that array, divides by `2^24` and takes the square root.

  On the extended reals the two agree for every input: addition is commutative and associative, so the table's
  total is the total over the rows (`Spec.regroup`); every contribution is non-negative (`Spec.term_nonneg`), so
  the mean is, and on a non-negative extended real the square root is the power one half
  (`Spec.lossSqrt_eq_lossPow`). The kernel's idealization rewrote nothing, so it is the kernel's own text.

  Modules: Consts (the float constants), Spec (the mathematics), RefSide (the reference's result), Payload and Cases
  (the kernel body's arithmetic and what a step leaves), Blocks (the blocks read back to the arguments), Accum (the
  table step by step), Final (the output array and the wrapper).
-/
import proofs.«125636_j20985210208413_2_alg».proof.Defs
import proofs.«125636_j20985210208413_2_alg».proof.Proof.Gen.Kernel
import proofs.«125636_j20985210208413_2_alg».proof.Proof.Gen.Kernel.Skeleton
import proofs.«125636_j20985210208413_2_alg».proof.Proof.Gen.Kernel.Launch
import proofs.«125636_j20985210208413_2_alg».proof.Proof.Gen.Kernel.Points
import proofs.«125636_j20985210208413_2_alg».proof.Proof.Gen.Kernel.Frame
import proofs.«125636_j20985210208413_2_alg».proof.Proof.Gen.KernelIdeal
import proofs.«125636_j20985210208413_2_alg».proof.Proof.Gen.KernelIdeal.Skeleton
import proofs.«125636_j20985210208413_2_alg».proof.Proof.Gen.KernelIdeal.Launch
import proofs.«125636_j20985210208413_2_alg».proof.Proof.Gen.KernelIdeal.Points
import proofs.«125636_j20985210208413_2_alg».proof.Proof.Gen.KernelIdeal.Frame
import proofs.«125636_j20985210208413_2_alg».proof.Proof.Gen.ReferenceIdeal
import proofs.«125636_j20985210208413_2_alg».proof.Proof.Gen.ReferenceIdeal.Run
import proofs.«125636_j20985210208413_2_alg».proof.Proof.Gen.ReferenceIdeal.Read
import proofs.«125636_j20985210208413_2_alg».proof.Proof.Gen.Pre_finite_inputs
import proofs.«125636_j20985210208413_2_alg».proof.Proof.RefSide
import proofs.«125636_j20985210208413_2_alg».proof.Proof.Final
import Idealize.ShloMosaic.Adequacy
import Idealize.ShloMosaic.Init

noncomputable section

namespace Cert.Proof

open Idealize.ShloMosaic Idealize.SL.Sem

/-- The kernel runs, without a fault, and leaves its arguments as they were (the generated frame). -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals both programs end with the same loss: the kernel's, the square root of the mean of its
    table's total; the reference's, the mean of the rows' total to the power one half, of arguments that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.RefSide.result_eq, (hagree c).1, (hagree c).2]
  funext _
  exact (Cert.Spec.loss_eq _ (Cert.Spec.flat_nonneg _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
